-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64x32 .f32) (main_arg5 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x256 .f32) (main_arg1 : FVec F S1600000 .f32) (main_arg2 : FVec F S256x64 .f32) (main_arg3 : FVec F S64 .f32) (main_arg4 : FVec F S64x32 .f32) (main_arg5 : FVec F S32 .f32) (main_arg6 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 92
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x64_S5000x64_1_0_0_1_n_n_wf : DotDims.WF S5000x256 S256x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its result named.  The program is eight segments: three stretches of host operations,
  the first matrix-product region, two more stretches, the second matrix-product region, and a last stretch.  The
  buffer contents at each segment boundary are a fold from the launch memory: a host stretch applies its operations'
  results, a region replaces its output array by what its write-backs leave and keeps every other buffer.  Every
  weakly fair execution terminates without a fault, and in the final state every unscoped buffer holds the last
  boundary's contents; read at the result buffer this names the result, read at the argument buffers it walks back
  to the launch memory.
-/
import proofs.«140244_j18837726560519_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument buffers end as launched. -/
theorem run : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.ResultRun

end
-- ==== Proof.LibDense.lean ====
/-
  General facts, at the exact instance (floats as extended reals), about the operations a dense layer and a row softmax
  are made of, each read at an index written by its coordinates:
  a matrix product into a zero accumulator is the sum over the contracted axis of the products of the row's and the
  column's entries; a vector cast to one row and broadcast down the rows is the vector at the column; a vector cast
  to one column and broadcast along the rows is the vector at the row; a sum and a maximum over the second axis of a
  matrix are the sum and the maximum of the row's entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDense

open Idealize.ShloMosaic Idealize.ShloMosaic.ValueIdx

variable {α : Type} {M K N : Nat}

/-- A matrix product of an [M, K] by a [K, N] matrix into the zero accumulator, read at (p, q): the sum over the
    contracted coordinate k of x(p, k) · w(k, q). The four hypotheses say which operand coordinate each of the
    product's index maps takes from the output index and which from the contraction index. -/
theorem matmul_zero_rc {φ₁ φ₂ : FTy} (D : DotDims ⟨2, ![M, K]⟩ ⟨2, ![K, N]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (prec : Option ContractPrecision)
    (x : FVec Ideal ⟨2, ![M, K]⟩ φ₁) (w : FVec Ideal ⟨2, ![K, N]⟩ φ₂) (p : Fin M) (q : Fin N) :
    matmul D prec x w (constant ⟨2, ![M, N]⟩ .f32 0x00000000#32) (ix2 p q) = ∑ k : Fin K, x (ix2 p k) * w (ix2 k q) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- An [N] vector cast to one row [1, N] and broadcast to [M, N] reads, at (p, q), the vector at q. -/
theorem rowBroadcast_rc (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ b h1) h2 (ix2 p q) = b (ix1 q) :=
  (broadcastTo_1b_ab_apply _ h2 p q).trans (shapeCast_a_1a_apply b h1 0 q)

/-- An [M] vector cast to one column [M, 1] reads, at (p, u), the vector at p. -/
theorem shapeCast_a_a1_apply (v : (⟨1, ![M]⟩ : Shape).Idx → α) (h : (⟨1, ![M]⟩ : Shape).ShapeCasts ⟨2, ![M, 1]⟩)
    (p : Fin M) (u : Fin 1) : shapeCast ⟨2, ![M, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An [M, 1] column cast to the [M] vector reads, at p, the column at (p, 0). -/
theorem shapeCast_a1_a_apply (v : (⟨2, ![M, 1]⟩ : Shape).Idx → α) (h : (⟨2, ![M, 1]⟩ : Shape).ShapeCasts ⟨1, ![M]⟩)
    (p : Fin M) : shapeCast ⟨1, ![M]⟩ v h (ix1 p) = v (ix2 p (0 : Fin 1)) :=
  shapeCast_apply v h _ _ (by
    rw [Shape.rowMajor_val_two, Shape.rowMajor_val_one]
    show p.val * 1 + 0 = p.val
    omega)

/-- An [M, 1] column broadcast along the rows to [M, N] reads, at (p, q), the column at (p, 0). -/
theorem broadcastTo_a1_ab_apply (v : (⟨2, ![M, 1]⟩ : Shape).Idx → α) (h : (⟨2, ![M, 1]⟩ : Shape).Broadcasts ⟨2, ![M, N]⟩)
    (p : Fin M) (q : Fin N) : broadcastTo ⟨2, ![M, N]⟩ v h (ix2 p q) = v (ix2 p (0 : Fin 1)) := by
  refine broadcastTo_apply v h (ix2 p q) (ix2 p (0 : Fin 1)) fun ax => ?_
  match ax with
  | ⟨0, _⟩ =>
    show p.val = if M = 1 then 0 else p.val
    split
    · have := p.isLt; omega
    · rfl
  | ⟨1, _⟩ => rfl

/-- An [M] vector cast to one column and broadcast along the rows to [M, N] reads, at (p, q), the vector at p. -/
theorem colBroadcast_rc (v : (⟨1, ![M]⟩ : Shape).Idx → α) (h1 : (⟨1, ![M]⟩ : Shape).ShapeCasts ⟨2, ![M, 1]⟩)
    (h2 : (⟨2, ![M, 1]⟩ : Shape).Broadcasts ⟨2, ![M, N]⟩) (p : Fin M) (q : Fin N) :
    broadcastTo ⟨2, ![M, N]⟩ (shapeCast ⟨2, ![M, 1]⟩ v h1) h2 (ix2 p q) = v (ix1 p) :=
  (broadcastTo_a1_ab_apply _ h2 p q).trans (shapeCast_a_a1_apply v h1 p 0)

/-- The index of an [M, N] matrix that drops to p when the second axis is reduced, with k put on that axis, is (p, k). -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The sum over the second axis of an [M, N] matrix, read at row p: the sum of the row's entries. -/
theorem rowSum_apply (src : FVec Ideal ⟨2, ![M, N]⟩ .f32) (h : (⟨2, ![M, N]⟩ : Shape).Reduces [1] ⟨1, ![M]⟩)
    (hφ : FKind.Formats .f32) (hacc : (0x00000000#32 : BitVec 32) = 0x00000000#32) (p : Fin M) :
    multiReduction .add [1] ⟨1, ![M]⟩ src 0x00000000#32 h hφ hacc (ix1 p) = ∑ k : Fin N, src (ix2 p k) := by
  refine (Ideal.multiReduction_add_single src 0x00000000#32 h hφ hacc (ix1 p)).trans ?_
  exact Finset.sum_congr rfl fun k _ => congrArg src (lift_row h p k)

/-- The maximum over the second axis of an [M, N] matrix, read at row p: the fold of max, from minus infinity's
    pattern, over the row's entries. -/
theorem rowMax_apply (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max (Ideal.ofBits .f32 0xFF800000#32) (fun k => src (ix2 p k)) := by
  refine (Ideal.multiReduction_maximumf_single src 0xFF800000#32 h hφ hacc (ix1 p)).trans ?_
  have e : (src ∘ h.lift (ix1 p)) = fun k => src (ix2 p k) := funext fun k => congrArg src (lift_row h p k)
  rw [e]
  rfl

/-- The host's reduction by maximum over the second axis of an [M, N] matrix, read at row p: the same fold, from the
    initial value's one element. -/
theorem hostRowMax_apply {u : Shape} (x : (⟨2, ![M, N]⟩ : Shape).Idx → EReal) (init : u.Idx → EReal)
    (h' : (⟨2, ![M, N]⟩ : Shape).ReducesTo [1] ⟨1, ![M]⟩) (h : (⟨2, ![M, N]⟩ : Shape).Reduces [1] ⟨1, ![M]⟩)
    (hu : 0 < u.numel) (p : Fin M) :
    Host.reduce (FloatOps.maximumf (F := Ideal) (φ := .f32)) x init h' hu (ix1 p)
      = (Finset.univ : Finset (Fin N)).fold max (init (Shape.Idx.first hu)) (fun k => x (ix2 p k)) := by
  refine (Host.reduce_eq_fold_single _ x init h' h hu (ix1 p)).trans ?_
  have e : (x ∘ h.lift (ix1 p)) = fun k => x (ix2 p k) := funext fun k => congrArg x (lift_row h p k)
  rw [e]
  rfl

/-! ## What a dense layer and a row softmax compute -/

/-- The f32 zero word's value (the rectifier's threshold and the sums' initial value). -/
abbrev zeroWord : EReal := Ideal.ofBits .f32 0x00000000#32

/-- Minus infinity's f32 word's value (the maximum's initial value). -/
abbrev negInfWord : EReal := Ideal.ofBits .f32 0xFF800000#32

/-- An affine map's entry: at (r, j), the sum over k of x(r, k) · w(k, j), plus b(j). -/
def affine (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)
    + b (ix1 (n := N) ⟨(i 1).val, (i 1).isLt⟩)

theorem affine_apply (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = ∑ k : Fin K, x (ix2 p k) * w (ix2 k q) + b (ix1 q) := rfl

/-- One dense layer with the rectifier: the affine map's entry or the zero word's value, whichever is larger. -/
def layer (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => max (affine x w b i) zeroWord

theorem layer_apply (x : (⟨2, ![M, K]⟩ : Shape).Idx → EReal) (w : (⟨2, ![K, N]⟩ : Shape).Idx → EReal)
    (b : (⟨1, ![N]⟩ : Shape).Idx → EReal) (p : Fin M) (q : Fin N) :
    layer x w b (ix2 p q) = max (∑ k : Fin K, x (ix2 p k) * w (ix2 k q) + b (ix1 q)) zeroWord := rfl

/-- A row's largest logit as both programs take it: the fold of max from minus infinity's word over the row, once more
    against that word. -/
def rowTop (l : Fin N → EReal) : EReal := max negInfWord ((Finset.univ : Finset (Fin N)).fold max negInfWord l)

/-- A softmax row as both programs compute it: each logit less the row's largest, exponentiated, over the sum of those
    exponentials (the exact quotient of extended reals). -/
def softmaxRow (l : Fin N → EReal) (v : Fin N) : EReal :=
  Ideal.div (Ideal.exp (l v - rowTop l)) (∑ u : Fin N, Ideal.exp (l u - rowTop l))

end Cert.LibDense

end
-- ==== Proof.RowDot.lean ====
/-
  The product of two matrices over the extended reals, entry by entry: for x of shape [M, K] and w of shape [K, N],
  the entry at row r and column j is the sum over the contracted coordinate k of x(r, k) · w(k, j).  The sum is a
  finite sum in a commutative monoid, so it does not depend on how the rows are cut into blocks or in which order the
  terms are taken: a product computed one block of rows at a time and a product computed at once have the same entries.
-/
import Idealize.ShloMosaic.PureOps.Ideal
import Idealize.ShloMosaic.Lib.ValueIdx

noncomputable section

namespace Cert.RowDot

open Idealize.ShloMosaic Idealize.ShloMosaic.ValueIdx

variable {M K N : Nat}

/-- The matrix product's entry function: at (r, j), the sum over k of x(r, k) · w(k, j). -/
def rowDot (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) ⟨(i 0).val, (i 0).isLt⟩ k) * w (ix2 (n0 := K) (n1 := N) k ⟨(i 1).val, (i 1).isLt⟩)

/-- Read at an index written by its coordinates. -/
theorem rowDot_apply (x : (⟨2, ![M, K]⟩ : Shape).Idx → EReal) (w : (⟨2, ![K, N]⟩ : Shape).Idx → EReal) (p : Fin M) (q : Fin N) :
    rowDot x w (ix2 p q) = ∑ k : Fin K, x (ix2 p k) * w (ix2 k q) := rfl

/-- Two products agree at an entry as soon as the row of the left factor and the column of the right factor agree. -/
theorem rowDot_congr_entry {M' : Nat} (x : (⟨2, ![M, K]⟩ : Shape).Idx → EReal) (x' : (⟨2, ![M', K]⟩ : Shape).Idx → EReal)
    (w w' : (⟨2, ![K, N]⟩ : Shape).Idx → EReal) (p : Fin M) (p' : Fin M') (q : Fin N)
    (hx : ∀ k : Fin K, x (ix2 p k) = x' (ix2 p' k)) (hw : ∀ k : Fin K, w (ix2 k q) = w' (ix2 k q)) :
    rowDot x w (ix2 p q) = rowDot x' w' (ix2 p' q) := by
  rw [rowDot_apply, rowDot_apply]
  exact Finset.sum_congr rfl fun k _ => by rw [hx k, hw k]

end Cert.RowDot

end
-- ==== Proof.FirstProduct.lean ====
/-
  The first matrix product, x · W1, as the kernel computes it: the 100000 rows of x are cut into 20 blocks of 5000
  rows; at grid point t the body multiplies block t of x (rows 5000·t … 5000·t + 4999, all 256 columns) by the whole
  of W1 into a zero accumulator and writes the 5000 × 64 result back as block t of the output.  Entry (p, q) of what
  point t writes is the sum over k of x(5000·t + p, k) · W1(k, q), which is entry (5000·t + p, q) of the whole product;
  the 20 blocks tile the output, so after the last point the output array is the whole product, entry by entry.
  Everything is stated for arbitrary contents of the buffers at the moment the region is entered.
-/
import proofs.«140244_j18837726560519_1_alg».proof.Proof.Gen.KernelIdeal.Frame
import proofs.«140244_j18837726560519_1_alg».proof.Proof.LibDense
import proofs.«140244_j18837726560519_1_alg».proof.Proof.RowDot
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.ShloMosaic.ValueIdx Idealize.SL.Sem
open Cert.KernelIdeal Cert.KernelIdeal.Gen Cert.RowDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): the row p of the loaded block of x against the column q of W1. -/
theorem stored_entry (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) :=
  Cert.LibDense.matmul_zero_rc (M := 5000) (K := 256) (N := 64) dot_S5000x256_S256x64_S5000x64_1_0_0_1_n_n rfl rfl
    (fun _ _ => rfl) (fun _ _ => rfl) (fun _ _ => rfl) (fun _ _ => rfl) none x0 x1 p q

/-- If the loaded block of x is rows 5000·T … of X and the loaded W1 is W, the stored value at (p, q) is the whole
    product's entry at (5000·T + p, q). -/
theorem stored_is_product (X : (⟨2, ![100000, 256]⟩ : Shape).Idx → EReal) (W : (⟨2, ![256, 64]⟩ : Shape).Idx → EReal)
    (x0 : Vec Ideal S5000x256 .f32) (x1 : Vec Ideal S256x64 .f32) (T : Nat) (hT : T < 20)
    (h0 : ∀ (p : Fin 5000) (k : Fin 256), x0 (ix2 p k) = X (ix2 ⟨T * 5000 + p.val, by have := p.isLt; omega⟩ k))
    (h1 : ∀ (k : Fin 256) (q : Fin 64), x1 (ix2 k q) = W (ix2 k q)) (p : Fin 5000) (q : Fin 64) :
    k0_pay1 (F := Ideal) x0 x1 (ix2 p q)
      = rowDot (M := 100000) (K := 256) (N := 64) X W (ix2 ⟨T * 5000 + p.val, by have := p.isLt; omega⟩ q) := by
  rw [stored_entry, rowDot_apply]
  exact Finset.sum_congr rfl fun k _ => by rw [h0 p k, h1 k q]

/-- Where each window's block sits at grid point t: the blocks of x and of the output are the t-th blocks of rows, W1's
    block is the whole of W1. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product of the arrays as the region finds them. -/
theorem written_back (c : Dev nD) (t : Fin cfg0.N) :
    (dat0 V c).flushed 2 t = ((cfg0.win 2).blk t).view.read (Elt Ideal)
      (rowDot (M := 100000) (K := 256) (N := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x64) zero_offsets]
  obtain ⟨e0, e1, e2, e3, e4, e5⟩ := block_positions t
  have hN : grid0.N = 20 := N_0
  have ht : t.val < 20 := by have h : t.val < grid0.N := t.isLt; omega
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = rowDot (M := 100000) (K := 256) (N := 64) (V c main_arg0) (V c main_arg2) (((cfg0.win 2).blk t).view.emb (ix2 p q))
  refine (stored_is_product (V c main_arg0) (V c main_arg2) (iblk0 V c 0 t) (iblk0 V c 1 t) t.val ht ?_ ?_ p q).trans ?_
  · intro p k
    show V c main_arg0 (((cfg0.win 0).blk t).view.emb (ix2 p k)) = V c main_arg0 (ix2 ⟨t.val * 5000 + p.val, _⟩ k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  · intro k q
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 64 + 1 * q.val = q.val; omega
  · refine congrArg (rowDot (M := 100000) (K := 256) (N := 64) (V c main_arg0) (V c main_arg2)) ?_
    funext a; apply Fin.ext
    match a with
    | ⟨0, _⟩ => show t.val * 5000 + p.val = win0_2.index t (0 : Fin 2) * 5000 + 1 * p.val; omega
    | ⟨1, _⟩ => show q.val = win0_2.index t (1 : Fin 2) * 64 + 1 * q.val; omega

/-- An index of the output array is in point t's block iff each coordinate is in the block's range on its axis. -/
theorem in_block_iff (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every entry of the output lies in the block of the point numbered by its row divided by 5000. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  have hlt : (i 0).val / 5000 < grid0.N := by omega
  obtain ⟨e0, e1, e2, e3, e4, e5⟩ := block_positions ⟨(i 0).val / 5000, hlt⟩
  refine ⟨⟨(i 0).val / 5000, hlt⟩, flush0_2 _, ?_⟩
  rw [in_block_iff]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    have e4' : win0_2.index ⟨(i 0).val / 5000, hlt⟩ (0 : Fin 2) = (i 0).val / 5000 := e4
    omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    omega

/-- After the region the output array is the whole product of the arrays the region found in x's and W1's buffers. -/
theorem array_after (c : Dev nD) :
    (dat0 V c).arrAt 2 cfg0.N = rowDot (M := 100000) (K := 256) (N := 64) (V c main_arg0) (V c main_arg2) :=
  (dat0 V c).arrAt_eq_of_cover 2 _ (fun t _ => written_back V c t) blocks_cover

end Cert.KernelIdeal.FirstProduct

end
-- ==== Proof.SecondProduct.lean ====
/-
  The second matrix product, h · W2, as the kernel computes it: the 100000 rows of h (64 columns) are cut into 20
  blocks of 5000 rows; at grid point t the body loads block t of h, casts it to its own shape (the identity),
  multiplies it by the whole of W2 into a zero accumulator and writes the 5000 × 32 result back as block t of the
  output.  Entry (p, q) of what point t writes is the sum over k of h(5000·t + p, k) · W2(k, q), the whole product's
  entry at (5000·t + p, q); the 20 blocks tile the output, so after the last point the output array is the whole
  product, entry by entry.  Everything is stated for arbitrary contents of the buffers at the moment the region is
  entered.
-/
import proofs.«140244_j18837726560519_1_alg».proof.Proof.Gen.KernelIdeal.Frame
import proofs.«140244_j18837726560519_1_alg».proof.Proof.LibDense
import proofs.«140244_j18837726560519_1_alg».proof.Proof.RowDot
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Idealize.ShloMosaic Idealize.ShloMosaic.TcCoe Idealize.ShloMosaic.ValueIdx Idealize.SL.Sem
open Cert.KernelIdeal Cert.KernelIdeal.Gen Cert.RowDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): the row p of the loaded block of h against the column q of W2 (the cast of
    the block to its own shape changes nothing). -/
theorem stored_entry (x0 : FVec Ideal S5000x64 .f32) (x1 : FVec Ideal S64x32 .f32) (p : Fin 5000) (q : Fin 32) :
    k1_pay1 (F := Ideal) x0 x1 (ix2 p q) = ∑ k : Fin 64, x0 (ix2 p k) * x1 (ix2 k q) := by
  unfold k1_pay1
  rw [shapeCast_self x0 shapeCasts_S5000x64_S5000x64]
  exact Cert.LibDense.matmul_zero_rc (M := 5000) (K := 64) (N := 32) dot_S5000x64_S64x32_S5000x32_1_0_0_1_n_n rfl rfl
    (fun _ _ => rfl) (fun _ _ => rfl) (fun _ _ => rfl) (fun _ _ => rfl) none x0 x1 p q

/-- If the loaded block of h is rows 5000·T … of H and the loaded W2 is W, the stored value at (p, q) is the whole
    product's entry at (5000·T + p, q). -/
theorem stored_is_product (H : (⟨2, ![100000, 64]⟩ : Shape).Idx → EReal) (W : (⟨2, ![64, 32]⟩ : Shape).Idx → EReal)
    (x0 : Vec Ideal S5000x64 .f32) (x1 : Vec Ideal S64x32 .f32) (T : Nat) (hT : T < 20)
    (h0 : ∀ (p : Fin 5000) (k : Fin 64), x0 (ix2 p k) = H (ix2 ⟨T * 5000 + p.val, by have := p.isLt; omega⟩ k))
    (h1 : ∀ (k : Fin 64) (q : Fin 32), x1 (ix2 k q) = W (ix2 k q)) (p : Fin 5000) (q : Fin 32) :
    k1_pay1 (F := Ideal) x0 x1 (ix2 p q)
      = rowDot (M := 100000) (K := 64) (N := 32) H W (ix2 ⟨T * 5000 + p.val, by have := p.isLt; omega⟩ q) := by
  rw [stored_entry, rowDot_apply]
  exact Finset.sum_congr rfl fun k _ => by rw [h0 p k, h1 k q]

/-- Where each window's block sits at grid point t: the blocks of h and of the output are the t-th blocks of rows, W2's
    block is the whole of W2. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product of the arrays as the region finds them. -/
theorem written_back (c : Dev nD) (t : Fin cfg1.N) :
    (dat1 V c).flushed 2 t = ((cfg1.win 2).blk t).view.read (Elt Ideal)
      (rowDot (M := 100000) (K := 64) (N := 32) (V c main_v49) (V c main_arg4)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x32) zero_offsets]
  obtain ⟨e0, e1, e2, e3, e4, e5⟩ := block_positions t
  have hN : grid1.N = 20 := N_1
  have ht : t.val < 20 := by have h : t.val < grid1.N := t.isLt; omega
  funext j
  obtain ⟨p, q, rfl⟩ : ∃ (p : Fin 5000) (q : Fin 32), j = ix2 p q := ⟨j 0, j 1, eq_ix2 j⟩
  show k1_pay1 (F := Ideal) (iblk1 V c 0 t) (iblk1 V c 1 t) (ix2 p q)
    = rowDot (M := 100000) (K := 64) (N := 32) (V c main_v49) (V c main_arg4) (((cfg1.win 2).blk t).view.emb (ix2 p q))
  refine (stored_is_product (V c main_v49) (V c main_arg4) (iblk1 V c 0 t) (iblk1 V c 1 t) t.val ht ?_ ?_ p q).trans ?_
  · intro p k
    show V c main_v49 (((cfg1.win 0).blk t).view.emb (ix2 p k)) = V c main_v49 (ix2 ⟨t.val * 5000 + p.val, _⟩ k)
    refine congrArg (V c main_v49) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k q
    show V c main_arg4 (((cfg1.win 1).blk t).view.emb (ix2 k q)) = V c main_arg4 (ix2 k q)
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 32 + 1 * q.val = q.val; omega
  · refine congrArg (rowDot (M := 100000) (K := 64) (N := 32) (V c main_v49) (V c main_arg4)) ?_
    funext a; apply Fin.ext
    match a with
    | ⟨0, _⟩ => show t.val * 5000 + p.val = win1_2.index t (0 : Fin 2) * 5000 + 1 * p.val; omega
    | ⟨1, _⟩ => show q.val = win1_2.index t (1 : Fin 2) * 32 + 1 * q.val; omega

/-- An index of the output array is in point t's block iff each coordinate is in the block's range on its axis. -/
theorem in_block_iff (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v50).slice (win1_2.rect t)).set ↔ _
  rw [View.set_slice_whole, Rect.mem_set_unit]
  exact Iff.rfl

/-- Every entry of the output lies in the block of the point numbered by its row divided by 5000. -/
theorem blocks_cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 20 := N_1
  have hlt : (i 0).val / 5000 < grid1.N := by omega
  obtain ⟨e0, e1, e2, e3, e4, e5⟩ := block_positions ⟨(i 0).val / 5000, hlt⟩
  refine ⟨⟨(i 0).val / 5000, hlt⟩, flush1_2 _, ?_⟩
  rw [in_block_iff]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    have e4' : win1_2.index ⟨(i 0).val / 5000, hlt⟩ (0 : Fin 2) = (i 0).val / 5000 := e4
    omega
  | ⟨1, _⟩ =>
    show win1_2.index ⟨(i 0).val / 5000, hlt⟩ (1 : Fin 2) * 32 ≤ (i 1).val ∧ (i 1).val < win1_2.index ⟨(i 0).val / 5000, hlt⟩ (1 : Fin 2) * 32 + 32
    omega

/-- After the region the output array is the whole product of the arrays the region found in h's and W2's buffers. -/
theorem array_after (c : Dev nD) :
    (dat1 V c).arrAt 2 cfg1.N = rowDot (M := 100000) (K := 64) (N := 32) (V c main_v49) (V c main_arg4) :=
  (dat1 V c).arrAt_eq_of_cover 2 _ (fun t _ => written_back V c t) blocks_cover

end Cert.KernelIdeal.SecondProduct

end
-- ==== Proof.RefProducts.lean ====
/-
  The reference's two matrix products, each one host dot_general over the whole arrays, read entry by entry: the entry
  at (r, j) is the sum over the contracted coordinate k of the left operand at (r, k) times the right operand at
  (k, j) — the same entry function the kernel's block-by-block products have.  The second product's left operand (the
  rectified first layer) stays an opaque array throughout.
-/
import proofs.«140244_j18837726560519_1_alg».proof.Proof.Gen.ReferenceIdeal.Read
import proofs.«140244_j18837726560519_1_alg».proof.Proof.RowDot
import Idealize.ShloMosaic.Lib.ValueIdx
import Idealize.ShloMosaic.PureOps.Ideal.Laws

set_option maxRecDepth 16384

noncomputable section

namespace Cert.ReferenceIdeal.Products

open Idealize.ShloMosaic Idealize.ShloMosaic.ValueIdx
open Cert.ReferenceIdeal Cert.ReferenceIdeal.Read Cert.RowDot

/-- x · W1 on the host is the product's entry function of x and W1. -/
theorem first_product (x0 : (⟨S100000x256, .f32⟩ : BufTy).Contents (Elt Ideal)) (x2 : (⟨S256x64, .f32⟩ : BufTy).Contents (Elt Ideal)) :
    val_main_v32 (F := Ideal) x0 x2 = rowDot (M := 100000) (K := 256) (N := 64) x0 x2 := by
  funext i
  rw [val_main_v32_apply]
  show _ = ∑ k : Fin 256, x0 (ix2 (n0 := 100000) (n1 := 256) ⟨(i 0).val, (i 0).isLt⟩ k) * x2 (ix2 (n0 := 256) (n1 := 64) k ⟨(i 1).val, (i 1).isLt⟩)
  refine Finset.sum_congr rfl fun k _ => ?_
  have el : lidx_main_v32 i k = ix2 (n0 := 100000) (n1 := 256) ⟨(i 0).val, (i 0).isLt⟩ k :=
    funext fun a => by match a with | ⟨0, _⟩ => rfl | ⟨1, _⟩ => rfl
  have er : ridx_main_v32 i k = ix2 (n0 := 256) (n1 := 64) k ⟨(i 1).val, (i 1).isLt⟩ :=
    funext fun a => by match a with | ⟨0, _⟩ => rfl | ⟨1, _⟩ => rfl
  rw [el, er]

/-- h · W2 on the host is the product's entry function of h (the rectified first layer, whatever it is) and W2. -/
theorem second_product (x0 : (⟨S100000x256, .f32⟩ : BufTy).Contents (Elt Ideal)) (x1 : (⟨S1600000, .f32⟩ : BufTy).Contents (Elt Ideal))
    (x2 : (⟨S256x64, .f32⟩ : BufTy).Contents (Elt Ideal)) (x3 : (⟨S64, .f32⟩ : BufTy).Contents (Elt Ideal))
    (x4 : (⟨S64x32, .f32⟩ : BufTy).Contents (Elt Ideal)) (x6 : (⟨S2x1600000, .i32⟩ : BufTy).Contents (Elt Ideal)) :
    val_main_v50 (F := Ideal) x0 x1 x2 x3 x4 x6
      = rowDot (M := 100000) (K := 64) (N := 32) (val_main_v49 (F := Ideal) x0 x1 x2 x3 x6) x4 := by
  funext i
  rw [val_main_v50_apply]
  generalize val_main_v49 (F := Ideal) x0 x1 x2 x3 x6 = h
  show _ = ∑ k : Fin 64, h (ix2 (n0 := 100000) (n1 := 64) ⟨(i 0).val, (i 0).isLt⟩ k) * x4 (ix2 (n0 := 64) (n1 := 32) k ⟨(i 1).val, (i 1).isLt⟩)
  refine Finset.sum_congr rfl fun k _ => ?_
  have el : lidx_main_v50 i k = ix2 (n0 := 100000) (n1 := 64) ⟨(i 0).val, (i 0).isLt⟩ k :=
    funext fun a => by match a with | ⟨0, _⟩ => rfl | ⟨1, _⟩ => rfl
  have er : ridx_main_v50 i k = ix2 (n0 := 64) (n1 := 32) k ⟨(i 1).val, (i 1).isLt⟩ :=
    funext fun a => by match a with | ⟨0, _⟩ => rfl | ⟨1, _⟩ => rfl
  rw [el, er]

end Cert.ReferenceIdeal.Products

end
-- ==== Proof.StagePre.lean ====
/-
  The host operations before the first matrix product, read as functions of the buffer contents they start from.
  They build the edge lists with a self-loop per node (source and destination indices), the edge weights with weight
  one on the self-loops, each node's degree as the scatter-sum of the weights over the destinations, its inverse
  square root where the degree is positive and zero elsewhere, and each edge's normalization, the product of that
  factor at its source, its weight, and that factor at its destination.  Both programs run these same operations, so
  each value is named by the reference's stage function of the argument arrays and is never opened.  The arguments'
  own buffers are not written.
-/
import proofs.«140244_j18837726560519_1_alg».proof.Proof.Gen.KernelIdeal.Launch
import proofs.«140244_j18837726560519_1_alg».proof.Proof.Gen.ReferenceIdeal.Read
import Idealize.ShloMosaic.Lib.StableHlo.Run

set_option maxRecDepth 16384

noncomputable section

namespace Cert.KernelIdeal.StagePre

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

/-- The stretch of operations from the launch to the first product: all three pieces, in order. -/
abbrev pre (V : Valuation τ sig (Elt F)) : Valuation τ sig (Elt F) := after hostOps0_2 (after hostOps0_1 (after hostOps0 V))

set_option maxHeartbeats 4000000 in
/-- The source indices, with the self-loops appended. -/
theorem sources : pre V (Proc.devRef .tc main_v5) = val_main_v5 (F := F) (V (Proc.devRef .tc main_arg6)) := by
  show after hostOps0_2 (after hostOps0_1 (after hostOps0 V)) (Proc.devRef .tc main_v5) = _
  after_results_simp <;> rfl

set_option maxHeartbeats 4000000 in
/-- The destination indices, with the self-loops appended. -/
theorem destinations : pre V (Proc.devRef .tc main_v6) = val_main_v6 (F := F) (V (Proc.devRef .tc main_arg6)) := by
  show after hostOps0_2 (after hostOps0_1 (after hostOps0 V)) (Proc.devRef .tc main_v6) = _
  after_results_simp <;> rfl

set_option maxHeartbeats 16000000 in
/-- Each edge's normalization: the inverse square root of the degree at the source, the weight, and the inverse
    square root of the degree at the destination, multiplied. -/
theorem normalization : pre V (Proc.devRef .tc main_v31) = val_main_v31 (F := F) (V (Proc.devRef .tc main_arg1)) (V (Proc.devRef .tc main_arg6)) := by
  show after hostOps0_2 (after hostOps0_1 (after hostOps0 V)) (Proc.devRef .tc main_v31) = _
  after_results_simp <;> rfl

set_option maxHeartbeats 4000000 in
theorem kept_arg0 : pre V (Proc.devRef .tc main_arg0) = V (Proc.devRef .tc main_arg0) := by
  show after hostOps0_2 (after hostOps0_1 (after hostOps0 V)) (Proc.devRef .tc main_arg0) = _
  after_results_simp <;> rfl
set_option maxHeartbeats 4000000 in
theorem kept_arg2 : pre V (Proc.devRef .tc main_arg2) = V (Proc.devRef .tc main_arg2) := by
  show after hostOps0_2 (after hostOps0_1 (after hostOps0 V)) (Proc.devRef .tc main_arg2) = _
  after_results_simp <;> rfl
set_option maxHeartbeats 4000000 in
theorem kept_arg3 : pre V (Proc.devRef .tc main_arg3) = V (Proc.devRef .tc main_arg3) := by
  show after hostOps0_2 (after hostOps0_1 (after hostOps0 V)) (Proc.devRef .tc main_arg3) = _
  after_results_simp <;> rfl
set_option maxHeartbeats 4000000 in
theorem kept_arg4 : pre V (Proc.devRef .tc main_arg4) = V (Proc.devRef .tc main_arg4) := by
  show after hostOps0_2 (after hostOps0_1 (after hostOps0 V)) (Proc.devRef .tc main_arg4) = _
  after_results_simp <;> rfl
set_option maxHeartbeats 4000000 in
theorem kept_arg5 : pre V (Proc.devRef .tc main_arg5) = V (Proc.devRef .tc main_arg5) := by
  show after hostOps0_2 (after hostOps0_1 (after hostOps0 V)) (Proc.devRef .tc main_arg5) = _
  after_results_simp <;> rfl

end Cert.KernelIdeal.StagePre

end
-- ==== Proof.StageMid.lean ====
/-
  The host operations between the two matrix products, read as functions of the buffer contents they start from: the
  first layer's aggregation — gather the rows of x · W1 at the edges' sources, scale each by its edge's
  normalization, scatter-sum them over the destinations, add the bias b1 — and the rectifier.  Both programs run
  these same operations; given that the buffers they read hold the reference's stage values, the rectified layer is
  the reference's stage value, and nothing is opened.  The buffers the later operations still need are not written.
-/
import proofs.«140244_j18837726560519_1_alg».proof.Proof.Gen.KernelIdeal.Launch
import proofs.«140244_j18837726560519_1_alg».proof.Proof.Gen.ReferenceIdeal.Read
import Idealize.ShloMosaic.Lib.StableHlo.Run

set_option maxRecDepth 16384

noncomputable section

namespace Cert.KernelIdeal.StageMid

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

/-- The stretch of operations between the two products: the aggregation, then the rectifier. -/
abbrev mid (V : Valuation τ sig (Elt F)) : Valuation τ sig (Elt F) := after hostOps1_1 (after hostOps1 V)

set_option maxHeartbeats 16000000 in
/-- The rectified first layer. -/
theorem rectified
    (a0 : (⟨Cert.ReferenceIdeal.S100000x256, .f32⟩ : BufTy).Contents (Elt F)) (a1 : (⟨Cert.ReferenceIdeal.S1600000, .f32⟩ : BufTy).Contents (Elt F))
    (a2 : (⟨Cert.ReferenceIdeal.S256x64, .f32⟩ : BufTy).Contents (Elt F)) (a3 : (⟨Cert.ReferenceIdeal.S64, .f32⟩ : BufTy).Contents (Elt F))
    (a6 : (⟨Cert.ReferenceIdeal.S2x1600000, .i32⟩ : BufTy).Contents (Elt F))
    (h32 : V (Proc.devRef .tc main_v32) = val_main_v32 (F := F) a0 a2)
    (h31 : V (Proc.devRef .tc main_v31) = val_main_v31 (F := F) a1 a6)
    (h5 : V (Proc.devRef .tc main_v5) = val_main_v5 (F := F) a6)
    (h6 : V (Proc.devRef .tc main_v6) = val_main_v6 (F := F) a6)
    (h3 : V (Proc.devRef .tc main_arg3) = a3) :
    mid V (Proc.devRef .tc main_v49) = val_main_v49 (F := F) a0 a1 a2 a3 a6 := by
  show after hostOps1_1 (after hostOps1 V) (Proc.devRef .tc main_v49) = _
  after_results_simp
  rw [h32, h31, h5, h6, h3]
  rfl

set_option maxHeartbeats 4000000 in
theorem kept_v31 : mid V (Proc.devRef .tc main_v31) = V (Proc.devRef .tc main_v31) := by
  show after hostOps1_1 (after hostOps1 V) (Proc.devRef .tc main_v31) = _
  after_results_simp <;> rfl
set_option maxHeartbeats 4000000 in
theorem kept_v5 : mid V (Proc.devRef .tc main_v5) = V (Proc.devRef .tc main_v5) := by
  show after hostOps1_1 (after hostOps1 V) (Proc.devRef .tc main_v5) = _
  after_results_simp <;> rfl
set_option maxHeartbeats 4000000 in
theorem kept_v6 : mid V (Proc.devRef .tc main_v6) = V (Proc.devRef .tc main_v6) := by
  show after hostOps1_1 (after hostOps1 V) (Proc.devRef .tc main_v6) = _
  after_results_simp <;> rfl
set_option maxHeartbeats 4000000 in
theorem kept_arg4 : mid V (Proc.devRef .tc main_arg4) = V (Proc.devRef .tc main_arg4) := by
  show after hostOps1_1 (after hostOps1 V) (Proc.devRef .tc main_arg4) = _
  after_results_simp <;> rfl
set_option maxHeartbeats 4000000 in
theorem kept_arg5 : mid V (Proc.devRef .tc main_arg5) = V (Proc.devRef .tc main_arg5) := by
  show after hostOps1_1 (after hostOps1 V) (Proc.devRef .tc main_arg5) = _
  after_results_simp <;> rfl

end Cert.KernelIdeal.StageMid

end
-- ==== Proof.StageTail.lean ====
/-
  The host operations after the second matrix product, read as a function of the buffer contents they start from:
  the second layer's aggregation — gather the rows of h · W2 at the edges' sources, scale each by its edge's
  normalization, scatter-sum them over the destinations, add the bias b2.  Both programs run these same operations;
  given that the buffers they read hold the reference's stage values, the result is the reference's stage value, and
  nothing is opened.
-/
import proofs.«140244_j18837726560519_1_alg».proof.Proof.Gen.KernelIdeal.Launch
import proofs.«140244_j18837726560519_1_alg».proof.Proof.Gen.ReferenceIdeal.Read
import Idealize.ShloMosaic.Lib.StableHlo.Run

set_option maxRecDepth 16384

noncomputable section

namespace Cert.KernelIdeal.StageTail

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (V : Valuation τ sig (Elt F))

set_option maxHeartbeats 16000000 in
/-- The program's result. -/
theorem result
    (a0 : (⟨Cert.ReferenceIdeal.S100000x256, .f32⟩ : BufTy).Contents (Elt F)) (a1 : (⟨Cert.ReferenceIdeal.S1600000, .f32⟩ : BufTy).Contents (Elt F))
    (a2 : (⟨Cert.ReferenceIdeal.S256x64, .f32⟩ : BufTy).Contents (Elt F)) (a3 : (⟨Cert.ReferenceIdeal.S64, .f32⟩ : BufTy).Contents (Elt F))
    (a4 : (⟨Cert.ReferenceIdeal.S64x32, .f32⟩ : BufTy).Contents (Elt F)) (a5 : (⟨Cert.ReferenceIdeal.S32, .f32⟩ : BufTy).Contents (Elt F))
    (a6 : (⟨Cert.ReferenceIdeal.S2x1600000, .i32⟩ : BufTy).Contents (Elt F))
    (h50 : V (Proc.devRef .tc main_v50) = val_main_v50 (F := F) a0 a1 a2 a3 a4 a6)
    (h31 : V (Proc.devRef .tc main_v31) = val_main_v31 (F := F) a1 a6)
    (h5 : V (Proc.devRef .tc main_v5) = val_main_v5 (F := F) a6)
    (h6 : V (Proc.devRef .tc main_v6) = val_main_v6 (F := F) a6)
    (hb : V (Proc.devRef .tc main_arg5) = a5) :
    after hostOps2 V (Proc.devRef .tc main_v66) = val_main_v66 (F := F) a0 a1 a2 a3 a4 a5 a6 := by
  after_results_simp
  rw [h50, h31, h5, h6, hb]
  rfl

end Cert.KernelIdeal.StageTail

end
-- ==== Proof.Boundaries.lean ====
/-
  The kernel program's buffer contents at each segment boundary, at exact arithmetic, for the buffers the later
  segments read — each identified with the reference's stage function of the launch contents of the arguments:

    entering the first product     sources, destinations, normalization; x, W1, b1, W2, b2 as launched
    leaving it                     its output = x · W1 (the blocks tile the array; a block-by-block product and a
                                   product taken at once have the same entries); the rest as entered
    entering the second product    the rectified first layer h; the rest carried
    leaving it                     its output = h · W2; the rest as entered
    at the return                  the result = the second layer's aggregation plus b2

  The host operations are the same in both programs, so they are only ever named, never opened.
-/
import proofs.«140244_j18837726560519_1_alg».proof.Proof.Gen.KernelIdeal.Frame
import proofs.«140244_j18837726560519_1_alg».proof.Proof.FirstProduct
import proofs.«140244_j18837726560519_1_alg».proof.Proof.SecondProduct
import proofs.«140244_j18837726560519_1_alg».proof.Proof.RefProducts
import proofs.«140244_j18837726560519_1_alg».proof.Proof.StagePre
import proofs.«140244_j18837726560519_1_alg».proof.Proof.StageMid
import proofs.«140244_j18837726560519_1_alg».proof.Proof.StageTail

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.RowDot
open Cert.ReferenceIdeal.Read Cert.ReferenceIdeal.Products

variable (m : (ℓ : Loc nD τ sig) → Buf (Elt Ideal) ℓ) (ρ : Dev nD → PrngReg) (c : Dev nD)

/-! ## Entering the first product -/

theorem enter1_sources : W3 m ρ c (Proc.devRef .tc main_v5) = val_main_v5 (F := Ideal) (m ((c.tc : Thread nD τ).loc main_arg6)) := StagePre.sources (W0 m ρ c)
theorem enter1_destinations : W3 m ρ c (Proc.devRef .tc main_v6) = val_main_v6 (F := Ideal) (m ((c.tc : Thread nD τ).loc main_arg6)) := StagePre.destinations (W0 m ρ c)
theorem enter1_normalization : W3 m ρ c (Proc.devRef .tc main_v31) = val_main_v31 (F := Ideal) (m ((c.tc : Thread nD τ).loc main_arg1)) (m ((c.tc : Thread nD τ).loc main_arg6)) :=
  StagePre.normalization (W0 m ρ c)
theorem enter1_arg0 : W3 m ρ c (Proc.devRef .tc main_arg0) = (m ((c.tc : Thread nD τ).loc main_arg0)) := StagePre.kept_arg0 (W0 m ρ c)
theorem enter1_arg2 : W3 m ρ c (Proc.devRef .tc main_arg2) = (m ((c.tc : Thread nD τ).loc main_arg2)) := StagePre.kept_arg2 (W0 m ρ c)
theorem enter1_arg3 : W3 m ρ c (Proc.devRef .tc main_arg3) = (m ((c.tc : Thread nD τ).loc main_arg3)) := StagePre.kept_arg3 (W0 m ρ c)
theorem enter1_arg4 : W3 m ρ c (Proc.devRef .tc main_arg4) = (m ((c.tc : Thread nD τ).loc main_arg4)) := StagePre.kept_arg4 (W0 m ρ c)
theorem enter1_arg5 : W3 m ρ c (Proc.devRef .tc main_arg5) = (m ((c.tc : Thread nD τ).loc main_arg5)) := StagePre.kept_arg5 (W0 m ρ c)

/-! ## Leaving the first product -/

/-- The first product's output is the reference's x · W1. -/
theorem leave1_product : W4 m ρ c (Proc.devRef .tc main_v32) = val_main_v32 (F := Ideal) (m ((c.tc : Thread nD τ).loc main_arg0)) (m ((c.tc : Thread nD τ).loc main_arg2)) := by
  refine (W4_arr m ρ c 2).trans ((FirstProduct.array_after (V3 m ρ) c).trans ?_)
  show rowDot (M := 100000) (K := 256) (N := 64) (W3 m ρ c (Proc.devRef .tc main_arg0)) (W3 m ρ c (Proc.devRef .tc main_arg2)) = _
  rw [enter1_arg0, enter1_arg2]
  exact (first_product _ _).symm

theorem leave1_sources : W4 m ρ c (Proc.devRef .tc main_v5) = val_main_v5 (F := Ideal) (m ((c.tc : Thread nD τ).loc main_arg6)) :=
  (W4_of_ne m ρ c main_v5 (by decide)).trans (enter1_sources m ρ c)
theorem leave1_destinations : W4 m ρ c (Proc.devRef .tc main_v6) = val_main_v6 (F := Ideal) (m ((c.tc : Thread nD τ).loc main_arg6)) :=
  (W4_of_ne m ρ c main_v6 (by decide)).trans (enter1_destinations m ρ c)
theorem leave1_normalization : W4 m ρ c (Proc.devRef .tc main_v31) = val_main_v31 (F := Ideal) (m ((c.tc : Thread nD τ).loc main_arg1)) (m ((c.tc : Thread nD τ).loc main_arg6)) :=
  (W4_of_ne m ρ c main_v31 (by decide)).trans (enter1_normalization m ρ c)
theorem leave1_arg3 : W4 m ρ c (Proc.devRef .tc main_arg3) = (m ((c.tc : Thread nD τ).loc main_arg3)) := (W4_of_ne m ρ c main_arg3 (by decide)).trans (enter1_arg3 m ρ c)
theorem leave1_arg4 : W4 m ρ c (Proc.devRef .tc main_arg4) = (m ((c.tc : Thread nD τ).loc main_arg4)) := (W4_of_ne m ρ c main_arg4 (by decide)).trans (enter1_arg4 m ρ c)
theorem leave1_arg5 : W4 m ρ c (Proc.devRef .tc main_arg5) = (m ((c.tc : Thread nD τ).loc main_arg5)) := (W4_of_ne m ρ c main_arg5 (by decide)).trans (enter1_arg5 m ρ c)

/-! ## Entering the second product -/

/-- The rectified first layer is the reference's. -/
theorem enter2_layer : W6 m ρ c (Proc.devRef .tc main_v49)
    = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) :=
  StageMid.rectified (W4 m ρ c) _ _ _ _ _ (leave1_product m ρ c) (leave1_normalization m ρ c) (leave1_sources m ρ c)
    (leave1_destinations m ρ c) (leave1_arg3 m ρ c)

theorem enter2_sources : W6 m ρ c (Proc.devRef .tc main_v5) = val_main_v5 (F := Ideal) (m ((c.tc : Thread nD τ).loc main_arg6)) :=
  (StageMid.kept_v5 (W4 m ρ c)).trans (leave1_sources m ρ c)
theorem enter2_destinations : W6 m ρ c (Proc.devRef .tc main_v6) = val_main_v6 (F := Ideal) (m ((c.tc : Thread nD τ).loc main_arg6)) :=
  (StageMid.kept_v6 (W4 m ρ c)).trans (leave1_destinations m ρ c)
theorem enter2_normalization : W6 m ρ c (Proc.devRef .tc main_v31) = val_main_v31 (F := Ideal) (m ((c.tc : Thread nD τ).loc main_arg1)) (m ((c.tc : Thread nD τ).loc main_arg6)) :=
  (StageMid.kept_v31 (W4 m ρ c)).trans (leave1_normalization m ρ c)
theorem enter2_arg4 : W6 m ρ c (Proc.devRef .tc main_arg4) = (m ((c.tc : Thread nD τ).loc main_arg4)) := (StageMid.kept_arg4 (W4 m ρ c)).trans (leave1_arg4 m ρ c)
theorem enter2_arg5 : W6 m ρ c (Proc.devRef .tc main_arg5) = (m ((c.tc : Thread nD τ).loc main_arg5)) := (StageMid.kept_arg5 (W4 m ρ c)).trans (leave1_arg5 m ρ c)

/-! ## Leaving the second product -/

/-- The second product's output is the reference's h · W2. -/
theorem leave2_product : W7 m ρ c (Proc.devRef .tc main_v50)
    = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) := by
  refine (W7_arr m ρ c 2).trans ((SecondProduct.array_after (V6 m ρ) c).trans ?_)
  show rowDot (M := 100000) (K := 64) (N := 32) (W6 m ρ c (Proc.devRef .tc main_v49)) (W6 m ρ c (Proc.devRef .tc main_arg4)) = _
  rw [enter2_layer, enter2_arg4]
  exact (second_product _ _ _ _ _ _).symm

theorem leave2_sources : W7 m ρ c (Proc.devRef .tc main_v5) = val_main_v5 (F := Ideal) (m ((c.tc : Thread nD τ).loc main_arg6)) :=
  (W7_of_ne m ρ c main_v5 (by decide)).trans (enter2_sources m ρ c)
theorem leave2_destinations : W7 m ρ c (Proc.devRef .tc main_v6) = val_main_v6 (F := Ideal) (m ((c.tc : Thread nD τ).loc main_arg6)) :=
  (W7_of_ne m ρ c main_v6 (by decide)).trans (enter2_destinations m ρ c)
theorem leave2_normalization : W7 m ρ c (Proc.devRef .tc main_v31) = val_main_v31 (F := Ideal) (m ((c.tc : Thread nD τ).loc main_arg1)) (m ((c.tc : Thread nD τ).loc main_arg6)) :=
  (W7_of_ne m ρ c main_v31 (by decide)).trans (enter2_normalization m ρ c)
theorem leave2_arg5 : W7 m ρ c (Proc.devRef .tc main_arg5) = (m ((c.tc : Thread nD τ).loc main_arg5)) := (W7_of_ne m ρ c main_arg5 (by decide)).trans (enter2_arg5 m ρ c)

/-! ## At the return -/

/-- The kernel program's result is the reference's result function of the launch contents of the arguments. -/
theorem result : W8 m ρ c (Proc.devRef .tc main_v66)
    = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  StageTail.result (W7 m ρ c) _ _ _ _ _ _ _ (leave2_product m ρ c) (leave2_normalization m ρ c) (leave2_sources m ρ c)
    (leave2_destinations m ρ c) (leave2_arg5 m ρ c)

end Cert.KernelIdeal.Boundaries

end
-- ==== Proof.lean ====
/-
  A two-layer graph convolution: out = Â · relu(Â · (x · W1) + b1) · W2 + b2 aggregated edge by edge, where Â's entry
  for an edge is deg(src)^(-1/2) · w · deg(dst)^(-1/2) with a unit self-loop at every node.  The kernel program and the
  reference run the same host operations (edge lists, degrees, normalization, gather / scale / scatter-sum, bias,
  rectifier) and differ only in the two matrix products: the reference takes each as one product of whole arrays, the
  kernel computes each 5000 rows at a time over a grid of 20 points into a zero accumulator.  Over the extended reals an
  entry of either is the finite sum over the contracted coordinate of the row's and the column's entries, so the two
  products are equal entry by entry whatever the inputs, and with them every later value up to the result.  No finiteness
  of the inputs is used: only commutativity and associativity of the sum, which hold at the infinities too.  The
  idealization rewrote no operation, so that claim has no conjunct.
-/
import proofs.«140244_j18837726560519_1_alg».proof.Defs
import proofs.«140244_j18837726560519_1_alg».proof.Proof.Gen.Kernel
import proofs.«140244_j18837726560519_1_alg».proof.Proof.Gen.Kernel.Skeleton
import proofs.«140244_j18837726560519_1_alg».proof.Proof.Gen.Kernel.Launch
import proofs.«140244_j18837726560519_1_alg».proof.Proof.Gen.Kernel.Points
import proofs.«140244_j18837726560519_1_alg».proof.Proof.Gen.Kernel.Frame
import proofs.«140244_j18837726560519_1_alg».proof.Proof.Gen.KernelIdeal
import proofs.«140244_j18837726560519_1_alg».proof.Proof.Gen.KernelIdeal.Skeleton
import proofs.«140244_j18837726560519_1_alg».proof.Proof.Gen.KernelIdeal.Launch
import proofs.«140244_j18837726560519_1_alg».proof.Proof.Gen.KernelIdeal.Points
import proofs.«140244_j18837726560519_1_alg».proof.Proof.Gen.KernelIdeal.Frame
import proofs.«140244_j18837726560519_1_alg».proof.Proof.Gen.ReferenceIdeal
import proofs.«140244_j18837726560519_1_alg».proof.Proof.Gen.Pre_finite_inputs
import proofs.«140244_j18837726560519_1_alg».proof.Proof.Gen.ReferenceIdeal.Run
import proofs.«140244_j18837726560519_1_alg».proof.Proof.Gen.ReferenceIdeal.Read
import proofs.«140244_j18837726560519_1_alg».proof.Proof.KernelRun
import proofs.«140244_j18837726560519_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result at the reference's result function of the (agreeing) argument arrays. -/
theorem algebraic : Cert.algebraic_KernelIdeal_ReferenceIdeal := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Boundaries.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v66_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
